-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x32x256 : Shape := ⟨3, ![16384, 32, 256]⟩
abbrev S16384x32 : Shape := ⟨2, ![16384, 32]⟩
abbrev S256x513 : Shape := ⟨2, ![256, 513]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x32x256 : S_.BroadcastsInDim S16384x32x256 (![] : Fin 0 → Fin S16384x32x256.rank)
  reducesTo_S16384x32x256_S_d0_1_2 : S16384x32x256.ReducesTo [0, 1, 2] S_
  bcast_S_S16384x32 : S_.BroadcastsInDim S16384x32 (![] : Fin 0 → Fin S16384x32.rank)
  reducesTo_S16384x32_S_d0_1 : S16384x32.ReducesTo [0, 1] S_
  bcast_S_S256x513 : S_.BroadcastsInDim S256x513 (![] : Fin 0 → Fin S256x513.rank)
  reducesTo_S256x513_S_d0_1 : S256x513.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x513 1) : IVec S_ 1 :=
  let main_c_5 : IVec S_ 1 := constantI S_ 1 1#1
  let main_v17 : IVec S_ 1 := (fun x v => Host.reduce IntOp.andi x v reducesTo_S256x513_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16384x256 .f32) (main_arg1 : FVec F S16384x32x256 .f32) (main_arg2 : FVec F S16384x32 .f32) (main_arg3 : FVec F S256x513 .f32) (main_arg4 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x32x256 .f32 := Host.absf main_arg1
  let main_cst_0 : FVec F S_ .f32 := constant S_ .f32 0x7F800000#32
  let main_v5 : FVec F S16384x32x256 .f32 := broadcastInDim S16384x32x256 ![] bcast_S_S16384x32x256 main_cst_0
  let main_v6 : IVec S16384x32x256 1 := cmpf .olt main_v4 main_v5
  let main_c_1 : IVec S_ 1 := constantI S_ 1 1#1
  let main_v7 : IVec S_ 1 := (fun x v => Host.reduce IntOp.andi x v reducesTo_S16384x32x256_S_d0_1_2 h_S_) main_v6 main_c_1
  let main_v8 : IVec S_ 1 := andi main_v3 main_v7
  let main_v9 : FVec F S16384x32 .f32 := Host.absf main_arg2
  let main_cst_2 : FVec F S_ .f32 := constant S_ .f32 0x7F800000#32
  let main_v10 : FVec F S16384x32 .f32 := broadcastInDim S16384x32 ![] bcast_S_S16384x32 main_cst_2
  let main_v11 : IVec S16384x32 1 := cmpf .olt main_v9 main_v10
  let main_c_3 : IVec S_ 1 := constantI S_ 1 1#1
  let main_v12 : IVec S_ 1 := (fun x v => Host.reduce IntOp.andi x v reducesTo_S16384x32_S_d0_1 h_S_) main_v11 main_c_3
  let main_v13 : IVec S_ 1 := andi main_v8 main_v12
  let main_v14 : FVec F S256x513 .f32 := Host.absf main_arg3
  let main_cst_4 : FVec F S_ .f32 := constant S_ .f32 0x7F800000#32
  let main_v15 : FVec F S256x513 .f32 := broadcastInDim S256x513 ![] bcast_S_S256x513 main_cst_4
  let main_v16 : IVec S256x513 1 := cmpf .olt main_v14 main_v15
  fn_part1 (F := F) main_arg4 main_v13 main_v16
-- ==== Kernel.lean ====
abbrev S16384x256 : Shape := ⟨2, ![16384, 256]⟩
abbrev S16384x32x256 : Shape := ⟨3, ![16384, 32, 256]⟩
abbrev S16384x32 : Shape := ⟨2, ![16384, 32]⟩
abbrev S256x513 : Shape := ⟨2, ![256, 513]⟩
abbrev S256 : Shape := ⟨1, ![256]⟩
abbrev S256x256 : Shape := ⟨2, ![256, 256]⟩
abbrev S256x1 : Shape := ⟨2, ![256, 1]⟩
abbrev S1x256 : Shape := ⟨2, ![1, 256]⟩
abbrev S512x256 : Shape := ⟨2, ![512, 256]⟩
abbrev S512x32x256 : Shape := ⟨3, ![512, 32, 256]⟩
abbrev S512x32 : Shape := ⟨2, ![512, 32]⟩
abbrev S512 : Shape := ⟨1, ![512]⟩
abbrev S512x1 : Shape := ⟨2, ![512, 1]⟩
abbrev S512x32x1 : Shape := ⟨3, ![512, 32, 1]⟩

abbrev nBuf : Space → Nat
  | .hbm => 14
  | .vmem => 12
  | .smem => 0
  | _ => 0

abbrev bufTy : (tb : Table) → Fin (tcTables nBuf tb) → BufTy
  | .hbm, ⟨0, _⟩ => ⟨S16384x256, .f32⟩
  | .hbm, ⟨1, _⟩ => ⟨S16384x32x256, .f32⟩
  | .hbm, ⟨2, _⟩ => ⟨S16384x32, .f32⟩
  | .hbm, ⟨3, _⟩ => ⟨S256x513, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x1, .f32⟩
  | .hbm, ⟨10, _⟩ => ⟨S256, .f32⟩
  | .hbm, ⟨11, _⟩ => ⟨S1x256, .f32⟩
  | .hbm, ⟨12, _⟩ => ⟨S1x256, .f32⟩
  | .hbm, ⟨13, _⟩ => ⟨S16384x256, .f32⟩
  | .local _ .vmem, ⟨0, _⟩ => ⟨S512x256, .f32⟩
  | .local _ .vmem, ⟨1, _⟩ => ⟨S512x256, .f32⟩
  | .local _ .vmem, ⟨2, _⟩ => ⟨S512x32x256, .f32⟩
  | .local _ .vmem, ⟨3, _⟩ => ⟨S512x32x256, .f32⟩
  | .local _ .vmem, ⟨4, _⟩ => ⟨S512x32, .f32⟩
  | .local _ .vmem, ⟨5, _⟩ => ⟨S512x32, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S256x513_S256x256_0_0 : S256x513.Slices ![0, 0] S256x256
  transposes_S256x256_S256x256_1_0 : S256x256.Transposes [1, 0] S256x256
  slices_S256x513_S256x256_0_256 : S256x513.Slices ![0, 256] S256x256
  slices_S256x513_S256x1_0_512 : S256x513.Slices ![0, 512] S256x1
  shapeCasts_S256x1_S256 : S256x1.ShapeCasts S256
  shapeCasts_S256_S1x256 : S256.ShapeCasts S1x256
  inb_S512x32_S512x32_0_0 : ∀ a, (![0, 0] : Fin 2 → Nat) a + S512x32.size a ≤ S512x32.size a
  h_S512x32 : 0 < S512x32.numel
  inb_S512x32x256_S512x32x256_0_0_0 : ∀ a, (![0, 0, 0] : Fin 3 → Nat) a + S512x32x256.size a ≤ S512x32x256.size a
  h_S512x32x256 : 0 < S512x32x256.numel
  reduces_S512x32_S512 : S512x32.Reduces [1] S512
  shapeCasts_S512_S512x1 : S512.ShapeCasts S512x1
  shapeCasts_S512x32_S512x32x1 : S512x32.ShapeCasts S512x32x1
  broadcasts_S512x32x1_S512x32x256 : S512x32x1.Broadcasts S512x32x256
  reduces_S512x32x256_S512x256 : S512x32x256.Reduces [1] S512x256
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  broadcasts_S512x1_S512x256 : S512x1.Broadcasts S512x256
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32x256.size a ≤ S16384x32x256.size a
  hwx0_1 : ∀ i : grid0.Coords, EltTy.bits .f32 = 32 ∨ (Rect.block (s := S16384x32x256) S512x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S16384x32.size a
  hwx0_2 : ∀ i : grid0.Coords, EltTy.bits .f32 = 32 ∨ (Rect.block (s := S16384x32) S512x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S16384x256.size a
  hwx0_7 : ∀ i : grid0.Coords, EltTy.bits .f32 = 32 ∨ (Rect.block (s := S16384x256) S512x256.size (cc0_transform_7 i) (hinb0_7 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x32x256 : Shape := ⟨3, ![16384, 32, 256]⟩
abbrev S16384x32 : Shape := ⟨2, ![16384, 32]⟩
abbrev S256x513 : Shape := ⟨2, ![256, 513]⟩
abbrev S256 : Shape := ⟨1, ![256]⟩
abbrev S256x256 : Shape := ⟨2, ![256, 256]⟩
abbrev S256x1 : Shape := ⟨2, ![256, 1]⟩
abbrev S1x256 : Shape := ⟨2, ![1, 256]⟩
abbrev S16384x1x256 : Shape := ⟨3, ![16384, 1, 256]⟩
abbrev S16384x32x1 : Shape := ⟨3, ![16384, 32, 1]⟩
abbrev S1x1x256 : Shape := ⟨3, ![1, 1, 256]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x32x256, .f32⟩
  | .hbm, ⟨2, _⟩ => ⟨S16384x32, .f32⟩
  | .hbm, ⟨3, _⟩ => ⟨S256x513, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256x1, .f32⟩
  | .hbm, ⟨8, _⟩ => ⟨S256, .f32⟩
  | .hbm, ⟨9, _⟩ => ⟨S256x256, .f32⟩
  | .hbm, ⟨10, _⟩ => ⟨S16384x256, .f32⟩
  | .hbm, ⟨11, _⟩ => ⟨S1x256, .f32⟩
  | .hbm, ⟨12, _⟩ => ⟨S16384x256, .f32⟩
  | .hbm, ⟨13, _⟩ => ⟨S16384x256, .f32⟩
  | .hbm, ⟨14, _⟩ => ⟨S16384x32x256, .f32⟩
  | .hbm, ⟨15, _⟩ => ⟨S16384x1x256, .f32⟩
  | .hbm, ⟨16, _⟩ => ⟨S16384x32x256, .f32⟩
  | .hbm, ⟨17, _⟩ => ⟨S16384x32x256, .f32⟩
  | .hbm, ⟨18, _⟩ => ⟨S16384x32x1, .f32⟩
  | .hbm, ⟨19, _⟩ => ⟨S1x1x256, .f32⟩
  | .hbm, ⟨20, _⟩ => ⟨S16384x32x256, .f32⟩
  | .hbm, ⟨21, _⟩ => ⟨S16384x32x256, .f32⟩
  | .hbm, ⟨22, _⟩ => ⟨S16384x32x256, .f32⟩
  | .hbm, ⟨23, _⟩ => ⟨S16384x32x256, .f32⟩
  | .hbm, ⟨24, _⟩ => ⟨S16384x32x1, .f32⟩
  | .hbm, ⟨25, _⟩ => ⟨S16384x32x256, .f32⟩
  | .hbm, ⟨26, _⟩ => ⟨S16384x32x256, .f32⟩
  | .hbm, ⟨27, _⟩ => ⟨S_, .f32⟩
  | .hbm, ⟨28, _⟩ => ⟨S16384x256, .f32⟩
  | .hbm, ⟨29, _⟩ => ⟨S_, .f32⟩
  | .hbm, ⟨30, _⟩ => ⟨S16384x256, .f32⟩
  | .hbm, ⟨31, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  slices_S256x513_S256x256_0_0 : S256x513.Slices ![0, 0] S256x256
  slices_S256x513_S256x256_0_256 : S256x513.Slices ![0, 256] S256x256
  slices_S256x513_S256x1_0_512 : S256x513.Slices ![0, 512] S256x1
  shapeCasts_S256x1_S256 : S256x1.ShapeCasts S256
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S16384x256_S16384x1x256_0_2 : S16384x256.BroadcastsInDim S16384x1x256 (![0, 2] : Fin 2 → Fin S16384x1x256.rank)
  bcast_S16384x1x256_S16384x32x256_0_1_2 : S16384x1x256.BroadcastsInDim S16384x32x256 (![0, 1, 2] : Fin 3 → Fin S16384x32x256.rank)
  bcast_S16384x32_S16384x32x1_0_1 : S16384x32.BroadcastsInDim S16384x32x1 (![0, 1] : Fin 2 → Fin S16384x32x1.rank)
  bcast_S256_S1x1x256_2 : S256.BroadcastsInDim S1x1x256 (![2] : Fin 1 → Fin S1x1x256.rank)
  bcast_S16384x32x1_S16384x32x256_0_1_2 : S16384x32x1.BroadcastsInDim S16384x32x256 (![0, 1, 2] : Fin 3 → Fin S16384x32x256.rank)
  bcast_S1x1x256_S16384x32x256_0_1_2 : S1x1x256.BroadcastsInDim S16384x32x256 (![0, 1, 2] : Fin 3 → Fin S16384x32x256.rank)
  reducesTo_S16384x32x256_S16384x256_d1 : S16384x32x256.ReducesTo [1] S16384x256
  h_S_ : 0 < S_.numel
  bcast_S_S16384x256 : S_.BroadcastsInDim S16384x256 (![] : Fin 0 → Fin S16384x256.rank)
  dot_S16384x256_S256x256_S16384x256_1_0_0_1_n_n_wf : DotDims.WF S16384x256 S256x256 S16384x256 [1] [0] [0] [1] [] []
  dot_S16384x32x256_S256x256_S16384x32x256_2_1_01_0_n_n_wf : DotDims.WF S16384x32x256 S256x256 S16384x32x256 [2] [1] [0, 1] [0] [] []

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x32x256_S256x256_S16384x32x256_2_1_01_0_n_n : DotDims S16384x32x256 S256x256 S16384x32x256 where
  lhsContracting := [2]
  rhsContracting := [1]
  lhsNonContracting := [0, 1]
  rhsNonContracting := [0]
  lhsBatch := []
  rhsBatch := []
  wf := dot_S16384x32x256_S256x256_S16384x32x256_2_1_01_0_n_n_wf

class Facts : Prop extends Facts₀ where

variable [Facts]
-- ==== Proof.Spec.lean ====
/-
  The two closed formulas of this certificate, entry by entry.

  A sample `b` has its own latent vector `own[b, ·]` (256 coordinates), 32 peers with latent vectors
  `peer[b, p, ·]` and one scalar metric `metr[b, p]` per peer. A linear layer with weight matrix `W`
  (256 output rows, 513 input columns: 256 for the own latent, 256 for a peer's latent, one for the
  metric) and bias `bias` is applied to the concatenation (own latent, peer latent, metric) for every
  peer; each peer's output is scaled by the peer's metric, and the 32 scaled outputs are averaged.

  * `refEntry` is that computation as written: for output coordinate `r`,
      ( 0 + ∑ₚ ((ownPart + ∑ₗ peer[b,p,l]·W[r,256+l]) + metr[b,p]·W[r,512]) · metr[b,p] ) / 32,
    with `ownPart = ∑ₗ own[b,l]·W[r,l] + bias[r]` shared by the peers.
  * `kernelEntry` moves the sum over the peers inside the linear map:
      ( (∑ₚ metr[b,p]) · ownPart + ∑ₗ (∑ₚ metr[b,p]·peer[b,p,l]) · W[r,256+l]
          + W[r,512] · ∑ₚ metr[b,p]² ) · 2⁻⁵.

  Both are stated over the extended reals with the two float literals (`2⁻⁵`, `32`, and the reduction's
  initial `+0`) kept as the binary words the programs spell.
-/
import Idealize.ShloMosaic.Lib.ValueIdx
import Idealize.ShloMosaic.PureOps.Ideal

noncomputable section

open scoped BigOperators

namespace Cert.PeerMean

open Idealize.ShloMosaic Idealize.ShloMosaic.ValueIdx

/-- The column of the weight matrix that meets coordinate `l` of the sample's own latent. -/
abbrev colOwn (l : Fin 256) : Fin 513 := ⟨l.val, by omega⟩
/-- The column of the weight matrix that meets coordinate `l` of a peer's latent. -/
abbrev colPeer (l : Fin 256) : Fin 513 := ⟨256 + l.val, by omega⟩
/-- The last column of the weight matrix, which meets a peer's metric. -/
abbrev colMetric : Fin 513 := ⟨512, by omega⟩

variable (own : FVec Ideal ⟨2, ![16384, 256]⟩ .f32) (peer : FVec Ideal ⟨3, ![16384, 32, 256]⟩ .f32)
  (metr : FVec Ideal ⟨2, ![16384, 32]⟩ .f32) (W : FVec Ideal ⟨2, ![256, 513]⟩ .f32)
  (bias : FVec Ideal ⟨1, ![256]⟩ .f32)

/-- The part of output coordinate `r` that does not depend on the peer: the own latent through its
    block of the weights, plus the bias. -/
def ownPart (b : Fin 16384) (r : Fin 256) : EReal :=
  (∑ l : Fin 256, own (ix2 b l) * W (ix2 r (colOwn l))) + bias (ix1 r)

/-- The kernel's entry `(b, r)`: the peer sum taken before the linear map. -/
def kernelEntry (b : Fin 16384) (r : Fin 256) : EReal :=
  (((∑ p : Fin 32, metr (ix2 b p)) * ownPart own W bias b r
      + ∑ l : Fin 256, (∑ p : Fin 32, metr (ix2 b p) * peer (ix3 b p l)) * W (ix2 r (colPeer l)))
    + W (ix2 r colMetric) * ∑ p : Fin 32, metr (ix2 b p) * metr (ix2 b p))
  * Ideal.ofBits .f32 0x3D000000#32

/-- The reference's entry `(b, r)`: the mean over the peers of the metric-scaled layer outputs. -/
def refEntry (b : Fin 16384) (r : Fin 256) : EReal :=
  Ideal.div
    (Ideal.ofBits .f32 0x00000000#32 + ∑ p : Fin 32,
      ((ownPart own W bias b r + ∑ l : Fin 256, peer (ix3 b p l) * W (ix2 r (colPeer l)))
        + metr (ix2 b p) * W (ix2 r colMetric)) * metr (ix2 b p))
    (Ideal.ofBits .f32 0x42000000#32)

/-- The kernel's whole result array. -/
def kernelFn : FVec Ideal ⟨2, ![16384, 256]⟩ .f32 := fun j => kernelEntry own peer metr W bias (j 0) (j 1)

/-- The reference's whole result array. -/
def refFn : FVec Ideal ⟨2, ![16384, 256]⟩ .f32 := fun j => refEntry own peer metr W bias (j 0) (j 1)

theorem kernelFn_apply (b : Fin 16384) (r : Fin 256) :
    kernelFn own peer metr W bias (ix2 b r) = kernelEntry own peer metr W bias b r := rfl

theorem refFn_apply (b : Fin 16384) (r : Fin 256) :
    refFn own peer metr W bias (ix2 b r) = refEntry own peer metr W bias b r := rfl

end Cert.PeerMean

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.LibKeepdims3.lean ====
/-
  Keepdims forms of rank 3 read at an index given by coordinates, and the one-axis reductions of a rank-3
  vector read at the ideal values.

  A reduction that keeps the reduced axis as a unit axis prints as three operations: the reduction itself, a
  shape cast that puts the unit axis back, and a broadcast of the unit axis over the original extent. Read at
  an index `(i, k, j)` the cast and the broadcast only forget the coordinate on the unit axis; the reduction is
  the sum (or the fold of `max`) over that axis's coordinate with the other two held. Each lemma below says this
  for one operation, with the extents `a`, `b`, `c` arbitrary and every index written by its coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Keepdims3

open Idealize.ShloMosaic Idealize.ShloMosaic.ValueIdx

variable {α : Type}

/-! ## A unit axis put back by a shape cast -/

/-- An `[a, c]` array cast to `[a, 1, c]` reads, at `(i, u, j)`, the operand at `(i, j)`: both have row-major
    position `i * c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`: both have row-major
    position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast over an extent -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ =>
    exact (if_pos rfl).symm
  | ⟨2, _⟩ =>
    show j.val = if c = 1 then 0 else j.val
    split
    · have := j.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    exact (if_pos rfl).symm

/-- A `[1, b, c]` array broadcast to `[a, b, c]` reads, at `(k, i, j)`, the operand's one matrix at `(i, j)`. -/
theorem broadcastTo_1bc_abc_apply {a b c : ℕ} (v : (⟨3, ![1, b, c]⟩ : Shape).Idx → α)
    (h : (⟨3, ![1, b, c]⟩ : Shape).Broadcasts ⟨3, ![a, b, c]⟩) (k : Fin a) (i : Fin b) (j : Fin c) :
    broadcastTo ⟨3, ![a, b, c]⟩ v h (ix3 k i j) = v (ix3 (0 : Fin 1) i j) := by
  refine broadcastTo_apply v h (ix3 k i j) (ix3 (0 : Fin 1) i j) fun ax => ?_
  match ax with
  | ⟨0, _⟩ =>
    exact (if_pos rfl).symm
  | ⟨1, _⟩ =>
    show i.val = if b = 1 then 0 else i.val
    split
    · have := i.isLt; omega
    · rfl
  | ⟨2, _⟩ =>
    show j.val = if c = 1 then 0 else j.val
    split
    · have := j.isLt; omega
    · rfl

/-! ## The index a one-axis reduction of a rank-3 vector reads -/

/-- Reducing the middle axis: the source index over result index `(i, j)` with middle coordinate `k` is `(i, k, j)`. -/
theorem lift_axis1 {a b c : ℕ} (h : (⟨3, ![a, b, c]⟩ : Shape).Reduces [1] (⟨2, ![a, c]⟩ : Shape)) (i : Fin a) (j : Fin c)
    (k : Fin ((⟨3, ![a, b, c]⟩ : Shape).size 1)) : h.lift (ix2 i j) k = ix3 i (⟨k.val, k.isLt⟩ : Fin b) j := by
  funext e; apply Fin.ext
  fin_cases e <;> rfl

/-- Reducing the last axis: the source index over result index `(i, j)` with last coordinate `k` is `(i, j, k)`. -/
theorem lift_axis2 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext e; apply Fin.ext
  fin_cases e <;> rfl

/-! ## One-axis reductions of a rank-3 vector at the ideal values -/

/-- The sum over the middle axis, read at `(i, j)`, is `∑ k, src (i, k, j)`. -/
theorem multiReduction_add_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (i : Fin a) (j : Fin c) :
    multiReduction .add [1] ⟨2, ![a, c]⟩ src acc h hφ hacc (ix2 i j) = ∑ k : Fin b, src (ix3 i k j) :=
  (Ideal.multiReduction_add_single src acc h hφ hacc (ix2 i j)).trans
    (Finset.sum_congr rfl fun k _ => congrArg src (lift_axis1 h i j k))

/-- The sum over the last axis, read at `(i, j)`, is `∑ k, src (i, j, k)`. -/
theorem multiReduction_add_axis2_apply {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_axis2 h i j k))

/-- The maximum over the middle axis, read at `(i, j)`, is the fold of `max` from the accumulator's value over
    `src (i, k, j)`. -/
theorem multiReduction_maximumf_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.maximumf.neutral φ hφ) (i : Fin a) (j : Fin c) :
    multiReduction .maximumf [1] ⟨2, ![a, c]⟩ src acc h hφ hacc (ix2 i j)
      = (Finset.univ : Finset (Fin b)).fold max (Ideal.ofBits φ acc) (fun k => src (ix3 i k j)) :=
  (Ideal.multiReduction_maximumf_single src acc h hφ hacc (ix2 i j)).trans
    (congrArg (fun f => (Finset.univ : Finset (Fin b)).fold max (Ideal.ofBits φ acc) f)
      (funext fun k => congrArg src (lift_axis1 h i j k)))

end Cert.Keepdims3

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.Payload.lean ====
/-
  The kernel body's stored value, read at one entry.

  At a grid point the body sees a block of 512 samples: their own latents `a` (512 × 256), their peers'
  latents `x` (512 × 32 × 256) and metrics `m` (512 × 32), and, whole, the two transposed weight blocks
  `u`, `w` (256 × 256: input coordinate by output coordinate), the metric's weight row `ω` and the bias
  row `β` (1 × 256 each). It stores, at row `p` and output coordinate `q`,

      ( (∑ₖ m[p,k]) · (∑ₗ a[p,l]·u[l,q] + β[0,q]) + ∑ₗ (∑ₖ m[p,k]·x[p,k,l]) · w[l,q]
          + ω[0,q] · ∑ₖ m[p,k]·m[p,k] ) · 2⁻⁵.

  The pieces that are not entrywise are read one at a time: a row sum kept as a column and repeated along the
  row; the metrics repeated along the latent axis, multiplied into the peers' latents and summed over the
  peers; a rows-by-columns product into the zero accumulator; a single row repeated down the block.
-/
import proofs.«126119_j32066225832017_2_alg».proof.Proof.Gen.KernelIdeal.Skeleton
import proofs.«126119_j32066225832017_2_alg».proof.Proof.LibKeepdims
import proofs.«126119_j32066225832017_2_alg».proof.Proof.LibKeepdims3
import proofs.«126119_j32066225832017_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.PeerMean.Body

open Cert.KernelIdeal Cert.KernelIdeal.Gen Idealize.ShloMosaic Idealize.ShloMosaic.ValueIdx

/-- The sum of a row of a 512 × 32 block, kept as a column and repeated along the 256 output coordinates,
    is at `(p, q)` the sum of row `p`, whatever `q`. -/
theorem rowSum_repeated (m : FVec Ideal S512x32 .f32) (p : Fin 512) (q : Fin 256) :
    broadcastTo S512x256
        (shapeCast S512x1 (multiReduction .add [1] S512 m 0x00000000#32 reduces_S512x32_S512 (.inl rfl) rfl)
          shapeCasts_S512_S512x1)
        broadcasts_S512x1_S512x256 (ix2 p q)
      = ∑ k : Fin 32, m (ix2 p k) :=
  (Cert.LibKeepdims.broadcastTo_a1_ab_apply _ broadcasts_S512x1_S512x256 p q).trans
    ((Cert.LibKeepdims.shapeCast_a_a1_apply _ shapeCasts_S512_S512x1 p 0).trans
      (Cert.LibKeepdims.multiReduction_add_row m 0x00000000#32 reduces_S512x32_S512 (.inl rfl) rfl p))

/-- The metrics repeated along the latent axis, times the peers' latents, summed over the peers: at `(p, l)`
    the metric-weighted sum of coordinate `l` of sample `p`'s peers. -/
theorem weightedPeers (m : FVec Ideal S512x32 .f32) (x : FVec Ideal S512x32x256 .f32) (p : Fin 512) (l : Fin 256) :
    multiReduction .add [1] S512x256
        (mulf (broadcastTo S512x32x256 (shapeCast S512x32x1 m shapeCasts_S512x32_S512x32x1)
          broadcasts_S512x32x1_S512x32x256) x)
        0x00000000#32 reduces_S512x32x256_S512x256 (.inl rfl) rfl (ix2 p l)
      = ∑ k : Fin 32, m (ix2 p k) * x (ix3 p k l) :=
  (Cert.Keepdims3.multiReduction_add_axis1_apply _ 0x00000000#32 reduces_S512x32x256_S512x256 (.inl rfl) rfl p l).trans
    (Finset.sum_congr rfl fun k _ => congrArg (· * x (ix3 p k l))
      ((Cert.Keepdims3.broadcastTo_ab1_abc_apply _ broadcasts_S512x32x1_S512x32x256 p k l).trans
        (Cert.Keepdims3.shapeCast_ab_ab1_apply m shapeCasts_S512x32_S512x32x1 p k 0)))

/-- A 512 × 256 block times a 256 × 256 block (re-cast to its own shape) into the zero accumulator: at
    `(p, q)` the sum over the shared axis. -/
theorem product_apply (a : FVec Ideal S512x256 .f32) (u : FVec Ideal S256x256 .f32) (p : Fin 512) (q : Fin 256) :
    matmul dot_S512x256_S256x256_S512x256_1_0_0_1_n_n none a (shapeCast S256x256 u shapeCasts_S256x256_S256x256)
        (constant S512x256 .f32 0x00000000#32) (ix2 p q)
      = ∑ l : Fin 256, a (ix2 p l) * u (ix2 l q) := by
  rw [shapeCast_self]
  exact Cert.LibPlainMatmul.matmul_zero_plain dot_S512x256_S256x256_S512x256_1_0_0_1_n_n_wf a u p q

/-- A single row (re-cast to its own shape) repeated down the 512 rows reads, at `(p, q)`, the row at `q`. -/
theorem row_repeated (β : FVec Ideal S1x256 .f32) (p : Fin 512) (q : Fin 256) :
    broadcastTo S512x256 (shapeCast S1x256 β shapeCasts_S1x256_S1x256) broadcasts_S1x256_S512x256 (ix2 p q)
      = β (ix2 (0 : Fin 1) q) := by
  rw [shapeCast_self]
  exact broadcastTo_1b_ab_apply β broadcasts_S1x256_S512x256 p q

/-- The stored value at row `p`, output coordinate `q`. -/
theorem stored_apply (m : FVec Ideal S512x32 .f32) (x : FVec Ideal S512x32x256 .f32) (a : FVec Ideal S512x256 .f32)
    (u : FVec Ideal S256x256 .f32) (β : FVec Ideal S1x256 .f32) (w : FVec Ideal S256x256 .f32)
    (ω : FVec Ideal S1x256 .f32) (p : Fin 512) (q : Fin 256) :
    k0_pay1 (F := Ideal) m x a u β w ω (ix2 p q)
      = (((∑ k : Fin 32, m (ix2 p k)) * ((∑ l : Fin 256, a (ix2 p l) * u (ix2 l q)) + β (ix2 (0 : Fin 1) q))
            + ∑ l : Fin 256, (∑ k : Fin 32, m (ix2 p k) * x (ix3 p k l)) * w (ix2 l q))
          + ω (ix2 (0 : Fin 1) q) * ∑ k : Fin 32, m (ix2 p k) * m (ix2 p k))
        * Ideal.ofBits .f32 0x3D000000#32 := by
  unfold k0_pay1
  refine congrArg (· * Ideal.ofBits .f32 0x3D000000#32) ?_
  refine congrArg₂ (· + ·) (congrArg₂ (· + ·) (congrArg₂ (· * ·) (rowSum_repeated m p q)
      (congrArg₂ (· + ·) (product_apply a u p q) (row_repeated β p q))) ?_)
    (congrArg₂ (· * ·) (row_repeated ω p q) (rowSum_repeated (mulf m m) p q))
  refine (product_apply _ w p q).trans (Finset.sum_congr rfl fun l _ => congrArg (· * w (ix2 l q)) ?_)
  exact weightedPeers m x p l

end Cert.PeerMean.Body

end
-- ==== Proof.HostSide.lean ====
/-
  The four small arrays the program prepares before the grid runs, read at an entry.

  From the weight matrix `W` (256 output rows × 513 input columns) and the bias, the program cuts and re-lays:
  * the own-latent block of the weights, transposed: entry `(l, q)` is `W[q, l]`;
  * the peer-latent block of the weights, transposed: entry `(l, q)` is `W[q, 256 + l]`;
  * the metric's column of the weights laid as one row: entry `(0, q)` is `W[q, 512]`;
  * the bias laid as one row: entry `(0, q)` is `bias[q]`.
  Each is a column cut of `W` followed by a transposition or by re-castings that keep the row-major order.
-/
import proofs.«126119_j32066225832017_2_alg».proof.Proof.Gen.KernelIdeal.Frame
import proofs.«126119_j32066225832017_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.PeerMean.Prepared

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- A column re-cast to a vector reads, at `i`, the column's entry `(i, 0)`: both sit at row-major position `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The transposed own-latent block of the weights: entry `(l, q)` is `W[q, l]`. -/
theorem ownWeights_apply (c : Dev nD) (l q : Fin 256) :
    (V m c main_v1 : S256x256.Idx → EReal) (ix2 l q)
      = (m ((c : Thread nD τ).loc main_arg3) : S256x513.Idx → EReal) (ix2 q (Cert.PeerMean.colOwn l)) := by
  have e : (V m c main_v1 : S256x256.Idx → EReal)
      = transpose S256x256 [1, 0]
          (extractStridedSlice S256x256 ![0, 0] (m ((c : Thread nD τ).loc main_arg3)) slices_S256x513_S256x256_0_0)
          transposes_S256x256_S256x256_1_0 := by
    dsimp only [Gen.V, Gen.hostOps0]; after_results <;> rfl
  rw [e]
  exact (transpose_ix2_apply _ transposes_S256x256_S256x256_1_0 l q).trans
    (slice2_axis1_apply 0 _ slices_S256x513_S256x256_0_0 q l (Cert.PeerMean.colOwn l) (by show l.val = 0 + l.val; omega))

/-- The transposed peer-latent block of the weights: entry `(l, q)` is `W[q, 256 + l]`. -/
theorem peerWeights_apply (c : Dev nD) (l q : Fin 256) :
    (V m c main_v3 : S256x256.Idx → EReal) (ix2 l q)
      = (m ((c : Thread nD τ).loc main_arg3) : S256x513.Idx → EReal) (ix2 q (Cert.PeerMean.colPeer l)) := by
  have e : (V m c main_v3 : S256x256.Idx → EReal)
      = transpose S256x256 [1, 0]
          (extractStridedSlice S256x256 ![0, 256] (m ((c : Thread nD τ).loc main_arg3)) slices_S256x513_S256x256_0_256)
          transposes_S256x256_S256x256_1_0 := by
    dsimp only [Gen.V, Gen.hostOps0]; after_results <;> rfl
  rw [e]
  exact (transpose_ix2_apply _ transposes_S256x256_S256x256_1_0 l q).trans
    (slice2_axis1_apply 256 _ slices_S256x513_S256x256_0_256 q l (Cert.PeerMean.colPeer l) rfl)

/-- The metric's column of the weights laid as one row: entry `(0, q)` is `W[q, 512]`. -/
theorem metricWeights_apply (c : Dev nD) (q : Fin 256) :
    (V m c main_v6 : S1x256.Idx → EReal) (ix2 (0 : Fin 1) q)
      = (m ((c : Thread nD τ).loc main_arg3) : S256x513.Idx → EReal) (ix2 q Cert.PeerMean.colMetric) := by
  have e : (V m c main_v6 : S1x256.Idx → EReal)
      = shapeCast S1x256
          (shapeCast S256
            (extractStridedSlice S256x1 ![0, 512] (m ((c : Thread nD τ).loc main_arg3)) slices_S256x513_S256x1_0_512)
            shapeCasts_S256x1_S256)
          shapeCasts_S256_S1x256 := by
    dsimp only [Gen.V, Gen.hostOps0]; after_results <;> rfl
  rw [e]
  exact (shapeCast_a_1a_apply _ shapeCasts_S256_S1x256 0 q).trans
    ((shapeCast_a1_a_apply _ shapeCasts_S256x1_S256 q).trans
      (slice2_axis1_apply 512 _ slices_S256x513_S256x1_0_512 q (0 : Fin 1) Cert.PeerMean.colMetric rfl))

/-- The bias laid as one row: entry `(0, q)` is `bias[q]`. -/
theorem biasRow_apply (c : Dev nD) (q : Fin 256) :
    (V m c main_v7 : S1x256.Idx → EReal) (ix2 (0 : Fin 1) q)
      = (m ((c : Thread nD τ).loc main_arg4) : S256.Idx → EReal) (ix1 q) := by
  have e : (V m c main_v7 : S1x256.Idx → EReal)
      = shapeCast S1x256 (m ((c : Thread nD τ).loc main_arg4)) shapeCasts_S256_S1x256 := by
    dsimp only [Gen.V, Gen.hostOps0]; after_results <;> rfl
  rw [e]
  exact shapeCast_a_1a_apply _ shapeCasts_S256_S1x256 0 q

end Cert.PeerMean.Prepared

end
-- ==== Proof.KernelValue.lean ====
/-
  The kernel's whole result array.

  The grid has 32 points; point `t` works on samples `512·t … 512·t + 511` and writes back rows
  `512·t … 512·t + 511` of the result (all 256 output coordinates). So entry `(p, q)` of what point `t` writes
  is the body's stored value at `(p, q)` of the point's blocks, and those blocks are restrictions of the
  argument arrays: row `p` of a sample-indexed block is sample `512·t + p`, while the four prepared weight and
  bias arrays are seen whole at every point. Reading every block back into the arrays turns the stored value
  into the closed formula `kernelEntry` at sample `512·t + p`; since the 32 row bands tile the 16384 rows,
  the result array is `kernelFn` of the arguments everywhere.
-/
import proofs.«126119_j32066225832017_2_alg».proof.Proof.Gen.KernelIdeal.Value
import proofs.«126119_j32066225832017_2_alg».proof.Proof.Spec
import proofs.«126119_j32066225832017_2_alg».proof.Proof.Payload
import proofs.«126119_j32066225832017_2_alg».proof.Proof.HostSide
import Idealize.ShloMosaic.Lib.ValueIdx
import Idealize.ShloMosaic.Lib.Pipeline.Value

noncomputable section

open scoped BigOperators

namespace Cert.PeerMean.KernelValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The closed formula of the argument arrays as core `c` holds them at launch. -/
abbrev resultFn (c : Dev nD) : S16384x256.Idx → EReal :=
  Cert.PeerMean.kernelFn (m ((c : Thread nD τ).loc main_arg0)) (m ((c : Thread nD τ).loc main_arg1))
    (m ((c : Thread nD τ).loc main_arg2)) (m ((c : Thread nD τ).loc main_arg3)) (m ((c : Thread nD τ).loc main_arg4))

/-- Where each window's block sits at point `t`: the three sample-indexed inputs and the output at row band
    `t`, the four prepared arrays always at their origin (decided over the 32 points). -/
theorem block_positions : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 32 := by
  have h := t.isLt
  have hN : cfg0.N = 32 := N_0
  omega

/-- The sample that row `p` of point `t`'s blocks is. -/
def sampleOf (t : Fin cfg0.N) (p : Fin 512) : Fin 16384 :=
  ⟨t.val * 512 + p.val, by have := point_lt t; have := p.isLt; omega⟩

/-! ## Each window's block, read back into its array -/

/-- The metrics' block: row `p` is sample `512·t + p`. -/
theorem metrics_block (c : Dev nD) (t : Fin cfg0.N) (p : Fin 512) (k : Fin 32) :
    iblk m c 2 t (ix2 p k)
      = (m ((c : Thread nD τ).loc main_arg2) : S16384x32.Idx → EReal) (ix2 (sampleOf t p) k) := by
  show V m c main_arg2 (((cfg0.win 2).blk t).view.emb (ix2 p k)) = _
  rw [V_main_arg2]
  refine congrArg _ (funext fun a => Fin.ext ?_)
  obtain ⟨-, -, -, -, -, e0, e1, -⟩ := block_positions t
  match a with
  | ⟨0, _⟩ => show win0_2.index t (0 : Fin 2) * 512 + 1 * p.val = t.val * 512 + p.val; omega
  | ⟨1, _⟩ => show win0_2.index t (1 : Fin 2) * 32 + 1 * k.val = k.val; omega

/-- The peers' latents' block: row `p` is sample `512·t + p`. -/
theorem peers_block (c : Dev nD) (t : Fin cfg0.N) (p : Fin 512) (k : Fin 32) (l : Fin 256) :
    iblk m c 1 t (ix3 p k l)
      = (m ((c : Thread nD τ).loc main_arg1) : S16384x32x256.Idx → EReal) (ix3 (sampleOf t p) k l) := by
  show V m c main_arg1 (((cfg0.win 1).blk t).view.emb (ix3 p k l)) = _
  rw [V_main_arg1]
  refine congrArg _ (funext fun a => Fin.ext ?_)
  obtain ⟨-, -, e0, e1, e2, -⟩ := block_positions t
  match a with
  | ⟨0, _⟩ => show win0_1.index t (0 : Fin 3) * 512 + 1 * p.val = t.val * 512 + p.val; omega
  | ⟨1, _⟩ => show win0_1.index t (1 : Fin 3) * 32 + 1 * k.val = k.val; omega
  | ⟨2, _⟩ => show win0_1.index t (2 : Fin 3) * 256 + 1 * l.val = l.val; omega

/-- The own latents' block: row `p` is sample `512·t + p`. -/
theorem own_block (c : Dev nD) (t : Fin cfg0.N) (p : Fin 512) (l : Fin 256) :
    iblk m c 0 t (ix2 p l)
      = (m ((c : Thread nD τ).loc main_arg0) : S16384x256.Idx → EReal) (ix2 (sampleOf t p) l) := by
  show V m c main_arg0 (((cfg0.win 0).blk t).view.emb (ix2 p l)) = _
  rw [V_main_arg0]
  refine congrArg _ (funext fun a => Fin.ext ?_)
  obtain ⟨e0, e1, -⟩ := block_positions t
  match a with
  | ⟨0, _⟩ => show win0_0.index t (0 : Fin 2) * 512 + 1 * p.val = t.val * 512 + p.val; omega
  | ⟨1, _⟩ => show win0_0.index t (1 : Fin 2) * 256 + 1 * l.val = l.val; omega

/-- The transposed own-latent weights are seen whole: entry `(l, q)` is `W[q, l]`. -/
theorem ownWeights_block (c : Dev nD) (t : Fin cfg0.N) (l q : Fin 256) :
    iblk m c 3 t (ix2 l q)
      = (m ((c : Thread nD τ).loc main_arg3) : S256x513.Idx → EReal) (ix2 q (Cert.PeerMean.colOwn l)) := by
  show V m c main_v1 (((cfg0.win 3).blk t).view.emb (ix2 l q)) = _
  have he : ((cfg0.win 3).blk t).view.emb (ix2 l q) = ix2 l q := by
    refine funext fun a => Fin.ext ?_
    obtain ⟨-, -, -, -, -, -, -, e0, e1, -⟩ := block_positions t
    match a with
    | ⟨0, _⟩ => show win0_3.index t (0 : Fin 2) * 256 + 1 * l.val = l.val; omega
    | ⟨1, _⟩ => show win0_3.index t (1 : Fin 2) * 256 + 1 * q.val = q.val; omega
  rw [he]
  exact Cert.PeerMean.Prepared.ownWeights_apply m c l q

/-- The transposed peer-latent weights are seen whole: entry `(l, q)` is `W[q, 256 + l]`. -/
theorem peerWeights_block (c : Dev nD) (t : Fin cfg0.N) (l q : Fin 256) :
    iblk m c 4 t (ix2 l q)
      = (m ((c : Thread nD τ).loc main_arg3) : S256x513.Idx → EReal) (ix2 q (Cert.PeerMean.colPeer l)) := by
  show V m c main_v3 (((cfg0.win 4).blk t).view.emb (ix2 l q)) = _
  have he : ((cfg0.win 4).blk t).view.emb (ix2 l q) = ix2 l q := by
    refine funext fun a => Fin.ext ?_
    obtain ⟨-, -, -, -, -, -, -, -, -, e0, e1, -⟩ := block_positions t
    match a with
    | ⟨0, _⟩ => show win0_4.index t (0 : Fin 2) * 256 + 1 * l.val = l.val; omega
    | ⟨1, _⟩ => show win0_4.index t (1 : Fin 2) * 256 + 1 * q.val = q.val; omega
  rw [he]
  exact Cert.PeerMean.Prepared.peerWeights_apply m c l q

/-- The metric's weight row is seen whole: entry `(0, q)` is `W[q, 512]`. -/
theorem metricWeights_block (c : Dev nD) (t : Fin cfg0.N) (q : Fin 256) :
    iblk m c 5 t (ix2 (0 : Fin 1) q)
      = (m ((c : Thread nD τ).loc main_arg3) : S256x513.Idx → EReal) (ix2 q Cert.PeerMean.colMetric) := by
  show V m c main_v6 (((cfg0.win 5).blk t).view.emb (ix2 (0 : Fin 1) q)) = _
  have he : ((cfg0.win 5).blk t).view.emb (ix2 (0 : Fin 1) q) = ix2 (0 : Fin 1) q := by
    refine funext fun a => Fin.ext ?_
    obtain ⟨-, -, -, -, -, -, -, -, -, -, -, e0, e1, -⟩ := block_positions t
    match a with
    | ⟨0, _⟩ => show win0_5.index t (0 : Fin 2) * 1 + 1 * 0 = 0; omega
    | ⟨1, _⟩ => show win0_5.index t (1 : Fin 2) * 256 + 1 * q.val = q.val; omega
  rw [he]
  exact Cert.PeerMean.Prepared.metricWeights_apply m c q

/-- The bias row is seen whole: entry `(0, q)` is `bias[q]`. -/
theorem bias_block (c : Dev nD) (t : Fin cfg0.N) (q : Fin 256) :
    iblk m c 6 t (ix2 (0 : Fin 1) q)
      = (m ((c : Thread nD τ).loc main_arg4) : S256.Idx → EReal) (ix1 q) := by
  show V m c main_v7 (((cfg0.win 6).blk t).view.emb (ix2 (0 : Fin 1) q)) = _
  have he : ((cfg0.win 6).blk t).view.emb (ix2 (0 : Fin 1) q) = ix2 (0 : Fin 1) q := by
    refine funext fun a => Fin.ext ?_
    obtain ⟨-, -, -, -, -, -, -, -, -, -, -, -, -, e0, e1, -⟩ := block_positions t
    match a with
    | ⟨0, _⟩ => show win0_6.index t (0 : Fin 2) * 1 + 1 * 0 = 0; omega
    | ⟨1, _⟩ => show win0_6.index t (1 : Fin 2) * 256 + 1 * q.val = q.val; omega
  rw [he]
  exact Cert.PeerMean.Prepared.biasRow_apply m c q

/-- Entry `(p, q)` of the output's block at point `t` is entry `(512·t + p, q)` of the result array. -/
theorem result_block (t : Fin cfg0.N) (p : Fin 512) (q : Fin 256) :
    ((cfg0.win 7).blk t).view.emb (ix2 p q) = ix2 (sampleOf t p) q := by
  refine funext fun a => Fin.ext ?_
  obtain ⟨-, -, -, -, -, -, -, -, -, -, -, -, -, -, -, e0, e1⟩ := block_positions t
  match a with
  | ⟨0, _⟩ => show win0_7.index t (0 : Fin 2) * 512 + 1 * p.val = t.val * 512 + p.val; omega
  | ⟨1, _⟩ => show win0_7.index t (1 : Fin 2) * 256 + 1 * q.val = q.val; omega

/-! ## What a point writes back, and the whole array -/

/-- Point `t` writes back block `t` of the closed formula of the arguments. -/
theorem flushed_eq (c : Dev nD) (t : Fin cfg0.N) :
    (dats m 0 c).flushed 7 t = ((cfg0.win 7).blk t).view.read (Elt Ideal) (resultFn m c) := by
  rw [Cert.KernelIdeal.Value.flushed7]
  unfold out0_7
  rw [View.canon_unit_zero zero2]
  simp only [View.ld_unit_zero (S := S512x32) zero2, View.ld_unit_zero (S := S512x32x256) zero3,
    View.ld_unit_zero (S := S512x256) zero2, View.ld_unit_zero (S := S256x256) zero2,
    View.ld_unit_zero (S := S1x256) zero2]
  funext j
  obtain ⟨p, q, rfl⟩ : ∃ (p : Fin 512) (q : Fin 256), j = ix2 p q := ⟨j 0, j 1, eq_ix2 j⟩
  show k0_pay1 (F := Ideal) (iblk m c 2 t) (iblk m c 1 t) (iblk m c 0 t) (iblk m c 3 t) (iblk m c 6 t) (iblk m c 4 t)
      (iblk m c 5 t) (ix2 p q) = resultFn m c (((cfg0.win 7).blk t).view.emb (ix2 p q))
  rw [result_block t p q]
  refine (Cert.PeerMean.Body.stored_apply (iblk m c 2 t) (iblk m c 1 t) (iblk m c 0 t) (iblk m c 3 t) (iblk m c 6 t)
    (iblk m c 4 t) (iblk m c 5 t) p q).trans ?_
  show _ = Cert.PeerMean.kernelEntry _ _ _ _ _ (sampleOf t p) q
  unfold Cert.PeerMean.kernelEntry Cert.PeerMean.ownPart
  simp only [metrics_block m c t p, peers_block m c t p, own_block m c t p, ownWeights_block m c t,
    peerWeights_block m c t, metricWeights_block m c t q, bias_block m c t q]

/-- An index of the result array lies in point `t`'s block iff each coordinate is in the block's range. -/
theorem mem_block (t : Fin cfg0.N) (i : S16384x256.Idx) :
    i ∈ ((cfg0.win 7).blk t).view.set ↔ ∀ a : Fin 2, win0_7.index t a * S512x256.size a ≤ (i a).val
      ∧ (i a).val < win0_7.index t a * S512x256.size a + S512x256.size a := by
  show i ∈ ((View.whole main_v8).slice (win0_7.rect t)).set ↔ _
  rw [View.set_slice_whole, Rect.mem_set_unit]
  exact Iff.rfl

/-- Every entry of the result array is written by the point of its row band. -/
theorem covered (i : S16384x256.Idx) :
    ∃ t : Fin cfg0.N, (cfg0.win 7).flush t = true ∧ i ∈ ((cfg0.win 7).blk t).view.set := by
  have hi0 : (i 0).val < 16384 := (i 0).isLt
  have hi1 : (i 1).val < 256 := (i 1).isLt
  have hN : cfg0.N = 32 := N_0
  let t : Fin cfg0.N := ⟨(i 0).val / 512, by rw [hN]; omega⟩
  have ht : t.val = (i 0).val / 512 := rfl
  refine ⟨t, flush0_7 t, ?_⟩
  rw [mem_block]
  obtain ⟨-, -, -, -, -, -, -, -, -, -, -, -, -, -, -, e0, e1⟩ := block_positions t
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 256 ≤ (i 1).val ∧ (i 1).val < win0_7.index t (1 : Fin 2) * 256 + 256
    omega

/-- After the run the result array is the closed formula of the arguments. -/
theorem final (c : Dev nD) : (dats m 0 c).arrAt 7 cfg0.N = resultFn m c :=
  (dats m 0 c).arrAt_eq_of_cover 7 (resultFn m c) (fun t _ => flushed_eq m c t) (covered)

/-- Every weakly fair execution of the kernel's program ends with the result array at the closed formula of
    the arguments and the arguments unchanged. -/
theorem run : θ_run defs (onTc (τ := τ) (main (F := Ideal))) ⟨m, fun _ => 0, ρ⟩ fun r => ∀ c : Dev nD,
      r.2.mem ((c : Thread nD τ).loc main_v8) = resultFn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.PeerMean.KernelValue

end
-- ==== Proof.RefRead.lean ====
/-
  The reference program's result array is the function `refFn` of the specification.

  The reference is a chain of 27 host operations; the generated module `Read` gives, for each of them, its
  value at an index in terms of its operands at an index. Composing those readings at explicit coordinates
  `(b, r)` (sample, output coordinate), `(b, p, r)` (sample, peer, output coordinate) yields the closed
  formula

      ( 0 + ∑ₚ ((ownPart b r + ∑ₗ peer[b,p,l]·W[r,256+l]) + metr[b,p]·W[r,512]) · metr[b,p] ) / 32 ,
      ownPart b r = ∑ₗ own[b,l]·W[r,l] + bias[r] .

  Every step is an index computation: slices of `W` shift the column (by 0, 256 or 512), the transpose
  swaps the two coordinates, a broadcast forgets the coordinates it adds, the reshape of the last column
  drops its unit axis, and the two contractions and the reduction run over the coordinate they consume.
  No arithmetic law is used; the float literals stay the binary words the program spells.
-/
import proofs.«126119_j32066225832017_2_alg».proof.Proof.Gen.ReferenceIdeal.Read
import proofs.«126119_j32066225832017_2_alg».proof.Proof.Spec

noncomputable section

open scoped BigOperators

namespace Cert.PeerMean.Reference

open Cert.ReferenceIdeal Cert.ReferenceIdeal.Read Idealize.ShloMosaic Idealize.ShloMosaic.ValueIdx

variable (x0 : FVec Ideal ⟨2, ![16384, 256]⟩ .f32) (x1 : FVec Ideal ⟨3, ![16384, 32, 256]⟩ .f32)
  (x2 : FVec Ideal ⟨2, ![16384, 32]⟩ .f32) (x3 : FVec Ideal ⟨2, ![256, 513]⟩ .f32)
  (x4 : FVec Ideal ⟨1, ![256]⟩ .f32)

/-! ### The three blocks of the weight matrix -/

/-- The transposed first block of the weights at `(k, r)` is `W[r, k]`: the slice keeps columns
    `0 … 255` and the transpose swaps the coordinates. -/
theorem ownBlock_at (k r : Fin 256) :
    val_main_v4 (F := Ideal) x3 (ix2 k r) = x3 (ix2 r (colOwn k)) := by
  rw [val_main_v4_apply, val_main_v0_apply]
  exact congrArg x3 (funext fun a => Fin.ext (by match a with | ⟨0, _⟩ => rfl | ⟨1, _⟩ => rfl))

/-- The second block of the weights at `(r, k)` is `W[r, 256 + k]`. -/
theorem peerBlock_at (r k : Fin 256) :
    val_main_v1 (F := Ideal) x3 (ix2 r k) = x3 (ix2 r (colPeer k)) := by
  rw [val_main_v1_apply]
  exact congrArg x3 (funext fun a => Fin.ext (by match a with | ⟨0, _⟩ => rfl | ⟨1, _⟩ => rfl))

/-- The last column of the weights, reshaped to a vector and broadcast over samples and peers, is
    `W[r, 512]` at every `(b, p, r)`. -/
theorem metricColumn_at (b : Fin 16384) (p : Fin 32) (r : Fin 256) :
    val_main_v16 (F := Ideal) x3 (ix3 b p r) = x3 (ix2 r colMetric) := by
  rw [val_main_v16_apply, val_main_v14_apply, val_main_v3_apply, val_main_v2_apply]
  exact congrArg x3 (funext fun a => Fin.ext (by
    match a with
    | ⟨0, _⟩ => exact Nat.div_one _
    | ⟨1, _⟩ => rfl))

/-! ### The part shared by the peers -/

/-- The bias, broadcast over the samples, is `bias[r]` at every `(b, r)`. -/
theorem bias_at (b : Fin 16384) (r : Fin 256) :
    val_main_v7 (F := Ideal) x4 (ix2 b r) = x4 (ix1 r) := by
  rw [val_main_v7_apply, val_main_v6_apply]
  exact congrArg x4 (funext fun a => Fin.ext (by match a with | ⟨0, _⟩ => rfl))

/-- The own latent through its block of the weights, plus the bias, is `ownPart`. -/
theorem ownPart_at (b : Fin 16384) (r : Fin 256) :
    val_main_v8 (F := Ideal) x0 x3 x4 (ix2 b r) = ownPart x0 x3 x4 b r := by
  rw [val_main_v8_apply, val_main_v5_apply, bias_at, Ideal.addf_def]
  unfold ownPart
  refine congrArg (· + x4 (ix1 r)) (Finset.sum_congr rfl fun k _ => ?_)
  have hl : lidx_main_v5 (ix2 b r) k = ix2 b k :=
    funext fun a => Fin.ext (by match a with | ⟨0, _⟩ => rfl | ⟨1, _⟩ => rfl)
  have hr : ridx_main_v5 (ix2 b r) k = ix2 k r :=
    funext fun a => Fin.ext (by match a with | ⟨0, _⟩ => rfl | ⟨1, _⟩ => rfl)
  rw [hl, hr, ownBlock_at]

/-- Broadcast over the peers, the shared part is still `ownPart b r` at every `(b, p, r)`. -/
theorem ownPartBroadcast_at (b : Fin 16384) (p : Fin 32) (r : Fin 256) :
    val_main_v11 (F := Ideal) x0 x3 x4 (ix3 b p r) = ownPart x0 x3 x4 b r := by
  rw [val_main_v11_apply, val_main_v10_apply]
  have h : idx_main_v10 (idx_main_v11 (ix3 b p r)) = ix2 b r :=
    funext fun a => Fin.ext (by match a with | ⟨0, _⟩ => rfl | ⟨1, _⟩ => rfl)
  rw [h, ownPart_at]

/-! ### The parts that depend on the peer -/

/-- A peer's latent through the second block of the weights. -/
theorem peerDot_at (b : Fin 16384) (p : Fin 32) (r : Fin 256) :
    val_main_v9 (F := Ideal) x1 x3 (ix3 b p r)
      = ∑ l : Fin 256, x1 (ix3 b p l) * x3 (ix2 r (colPeer l)) := by
  rw [val_main_v9_apply]
  refine Finset.sum_congr rfl fun k _ => ?_
  have hl : lidx_main_v9 (ix3 b p r) k = ix3 b p k :=
    funext fun a => Fin.ext (by match a with | ⟨0, _⟩ => rfl | ⟨1, _⟩ => rfl | ⟨2, _⟩ => rfl)
  have hr : ridx_main_v9 (ix3 b p r) k = ix2 r k :=
    funext fun a => Fin.ext (by match a with | ⟨0, _⟩ => rfl | ⟨1, _⟩ => rfl)
  rw [hl, hr, peerBlock_at]

/-- The metric broadcast along the output coordinate (the factor of the last column). -/
theorem metricInner_at (b : Fin 16384) (p : Fin 32) (r : Fin 256) :
    val_main_v15 (F := Ideal) x2 (ix3 b p r) = x2 (ix2 b p) := by
  rw [val_main_v15_apply, val_main_v13_apply]
  exact congrArg x2 (funext fun a => Fin.ext (by match a with | ⟨0, _⟩ => rfl | ⟨1, _⟩ => rfl))

/-- The metric broadcast along the output coordinate (the factor that scales a peer's output). -/
theorem metricOuter_at (b : Fin 16384) (p : Fin 32) (r : Fin 256) :
    val_main_v20 (F := Ideal) x2 (ix3 b p r) = x2 (ix2 b p) := by
  rw [val_main_v20_apply, val_main_v19_apply]
  exact congrArg x2 (funext fun a => Fin.ext (by match a with | ⟨0, _⟩ => rfl | ⟨1, _⟩ => rfl))

/-- One peer's scaled output: the layer applied to (own latent, peer latent, metric), times the metric. -/
theorem summand_at (b : Fin 16384) (p : Fin 32) (r : Fin 256) :
    val_main_v21 (F := Ideal) x0 x1 x2 x3 x4 (ix3 b p r)
      = ((ownPart x0 x3 x4 b r + ∑ l : Fin 256, x1 (ix3 b p l) * x3 (ix2 r (colPeer l)))
          + x2 (ix2 b p) * x3 (ix2 r colMetric)) * x2 (ix2 b p) := by
  rw [val_main_v21_apply, val_main_v18_apply, val_main_v12_apply, val_main_v17_apply,
    ownPartBroadcast_at, peerDot_at, metricInner_at, metricColumn_at, metricOuter_at,
    Ideal.mulf_def, Ideal.addf_def, Ideal.addf_def, Ideal.mulf_def]

/-! ### The whole array -/

/-- The reference's result array is `refFn`: the sum of the 32 scaled outputs, started from the
    program's zero word, divided by the program's word for 32. -/
theorem ref_eq (x0 : FVec Ideal ⟨2, ![16384, 256]⟩ .f32) (x1 : FVec Ideal ⟨3, ![16384, 32, 256]⟩ .f32)
    (x2 : FVec Ideal ⟨2, ![16384, 32]⟩ .f32) (x3 : FVec Ideal ⟨2, ![256, 513]⟩ .f32)
    (x4 : FVec Ideal ⟨1, ![256]⟩ .f32) :
    Cert.ReferenceIdeal.Read.val_main_v24 (F := Ideal) x0 x1 x2 x3 x4
      = Cert.PeerMean.refFn x0 x1 x2 x3 x4 := by
  funext j
  obtain ⟨b, r, rfl⟩ : ∃ (b : Fin 16384) (r : Fin 256), j = ix2 b r := ⟨j 0, j 1, eq_ix2 j⟩
  rw [refFn_apply, val_main_v24_apply, val_main_v22_apply, val_main_v23_apply, val_main_cst_apply,
    val_main_cst_0_apply, Ideal.hostDivf_def, Ideal.ofBits_def, Ideal.ofBits_def]
  unfold refEntry
  refine congrArg (fun t => Ideal.div (Ideal.ofBits .f32 0x00000000#32 + t) (Ideal.ofBits .f32 0x42000000#32))
    (Finset.sum_congr rfl fun p _ => ?_)
  have h : idx_main_v22 (ix2 b r) p = ix3 b p r :=
    funext fun a => Fin.ext (by match a with | ⟨0, _⟩ => rfl | ⟨1, _⟩ => rfl | ⟨2, _⟩ => rfl)
  rw [h, summand_at]

end Cert.PeerMean.Reference

end
-- ==== Proof.LibFinite.lean ====
/-
  Finite extended reals. `IsReal x` says the extended real `x` is a real number (neither
  infinity). The exact float operations of the ideal values — sum, difference, product,
  maximum, minimum, negation, quotient by a nonzero finite divisor, reciprocal square root
  of a positive finite value — keep finite operands finite; a finite sum of finite terms
  is finite, and the coercion `ℝ → EReal` commutes with finite sums.

  Everything here is stated once on `EReal` and once over the `FloatOps` fields at
  `Ideal` (`FloatOps.addf` …), and entrywise over vectors (`AllReal v`).
-/
import Idealize.ShloMosaic.PureOps.Ideal.Laws

open scoped BigOperators
open Idealize.ShloMosaic

namespace LibFinite

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- Finite means: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

/-- The real number a finite extended real is. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The quotient of the ideal values by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsReal.rsqrt {x : EReal} (hx : IsReal x) (hpos : 0 < x) : IsReal (Ideal.rsqrt x) := by
  obtain ⟨a, rfl⟩ := hx
  exact ⟨_, rsqrt_coe_pos (EReal.coe_pos.mp hpos)⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A finite sum of finite nonnegative terms is nonnegative (and finite). -/
theorem sum_nonneg_of_isReal {ι : Type*} (s : Finset ι) (f : ι → EReal) (h0 : ∀ i ∈ s, 0 ≤ f i) :
    0 ≤ ∑ i ∈ s, f i := Finset.sum_nonneg h0

/-! ### The same over the float operations of the ideal values -/

variable {φ : FTy}

theorem isReal_addf {x y : Ideal φ} (hx : IsReal x) (hy : IsReal y) : IsReal (FloatOps.addf x y) := hx.add hy
theorem isReal_subf {x y : Ideal φ} (hx : IsReal x) (hy : IsReal y) : IsReal (FloatOps.subf x y) := hx.sub hy
theorem isReal_mulf {x y : Ideal φ} (hx : IsReal x) (hy : IsReal y) : IsReal (FloatOps.mulf x y) := hx.mul hy
theorem isReal_negf {x : Ideal φ} (hx : IsReal x) : IsReal (FloatOps.negf x) := hx.neg
theorem isReal_maximumf {x y : Ideal φ} (hx : IsReal x) (hy : IsReal y) : IsReal (FloatOps.maximumf x y) := hx.max hy
theorem isReal_minimumf {x y : Ideal φ} (hx : IsReal x) (hy : IsReal y) : IsReal (FloatOps.minimumf x y) := hx.min hy
theorem isReal_divf {x y : Ideal φ} (hx : IsReal x) (hy : IsReal y) (h0 : y ≠ 0) : IsReal (FloatOps.divf x y) :=
  hx.div hy h0
theorem isReal_hostDivf {x y : Ideal φ} (hx : IsReal x) (hy : IsReal y) (h0 : y ≠ 0) :
    IsReal (FloatOps.hostDivf x y) := hx.div hy h0
theorem isReal_rsqrt {x : Ideal φ} (hx : IsReal x) (hpos : 0 < x) : IsReal (FloatOps.rsqrt x) := hx.rsqrt hpos
theorem isReal_hostRsqrt {x : Ideal φ} (hx : IsReal x) (hpos : 0 < x) : IsReal (FloatOps.hostUnary .rsqrt x) :=
  hx.rsqrt hpos

/-! ### Entrywise over vectors -/

/-- Every entry of the vector is a real number. -/
def AllReal {s : Shape} (v : s.Idx → EReal) : Prop := ∀ i, IsReal (v i)

variable {s : Shape}

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_divf {x y : FVec Ideal s φ} (hx : AllReal x) (hy : AllReal y) (h0 : ∀ i, y i ≠ 0) :
    AllReal (divf x y) := fun i => (hx i).div (hy i) (h0 i)
theorem allReal_hostDivf {x y : FVec Ideal s φ} (hx : AllReal x) (hy : AllReal y) (h0 : ∀ i, y i ≠ 0) :
    AllReal (Host.divf x y) := fun i => (hx i).div (hy i) (h0 i)
theorem allReal_rsqrt {x : FVec Ideal s φ} (hx : AllReal x) (hpos : ∀ i, 0 < x i) : AllReal (rsqrt x) :=
  fun i => (hx i).rsqrt (hpos i)
theorem allReal_hostRsqrt {x : FVec Ideal s φ} (hx : AllReal x) (hpos : ∀ i, 0 < x i) : AllReal (Host.rsqrt x) :=
  fun i => (hx i).rsqrt (hpos i)
theorem allReal_broadcast {x : EReal} (hx : IsReal x) (t : Shape) : AllReal (broadcast t x) := fun _ => hx

end LibFinite
-- ==== Proof.Bridge.lean ====
/-
  Under finite inputs the kernel's formula and the reference's formula are the same number.

  The reference scales each peer's layer output by the peer's metric and averages; the kernel
  first sums over the peers and then applies the linear map once. Passing from one to the other
  uses distributivity of the product over the sum and an exchange of the two finite sums (over the
  peers and over the latent coordinates). On the extended reals distributivity fails at the
  infinities (for instance `(⊤ + ⊥) * x`), so the statement assumes every array entry is a real
  number. Then each side is the image of a single real expression under the inclusion
  `ℝ → EReal`, and the two real expressions agree by ordinary algebra.
-/
import proofs.«126119_j32066225832017_2_alg».proof.Proof.Spec
import proofs.«126119_j32066225832017_2_alg».proof.Proof.LibFinite

noncomputable section

open scoped BigOperators

namespace Cert.PeerMean

open Idealize.ShloMosaic Idealize.ShloMosaic.ValueIdx

/-! ### The three float literals -/

/-- The word `0x00000000` is `+0.0`: the real number `0`. -/
theorem lit_zero : Ideal.ofBits .f32 0x00000000#32 = ((0 : ℝ) : EReal) := by
  simp [Ideal.ofBits, Ideal.ieee]

/-- The word `0x3D000000` has biased exponent `122` and zero mantissa: `2⁻⁵ = 1/32`. -/
theorem lit_inv32 : Ideal.ofBits .f32 0x3D000000#32 = ((1 / 32 : ℝ) : EReal) := by
  simp [Ideal.ofBits, Ideal.ieee, -EReal.coe_mul]; norm_num

/-- The word `0x42000000` has biased exponent `132` and zero mantissa: `2⁵ = 32`. -/
theorem lit_32 : Ideal.ofBits .f32 0x42000000#32 = ((32 : ℝ) : EReal) := by
  simp [Ideal.ofBits, Ideal.ieee, -EReal.coe_mul]; norm_num

/-! ### The identity over the reals -/

/-- Summing over the peers before or after the linear map gives the same real number.
    `m p` is peer `p`'s metric, `x p l` its latent, `w l` the weights met by the latent, `ω` the
    weight met by the metric, and `A` the part common to all peers. The middle term needs the two
    sums exchanged; the rest is distributivity, term by term. -/
theorem sum_before_eq_sum_after {ι κ : Type*} [Fintype ι] [Fintype κ]
    (m : ι → ℝ) (x : ι → κ → ℝ) (w : κ → ℝ) (A ω : ℝ) :
    (∑ p, m p) * A + ∑ l, (∑ p, m p * x p l) * w l + ω * ∑ p, m p * m p
      = ∑ p, ((A + ∑ l, x p l * w l) + m p * ω) * m p := by
  have hmid : ∑ l, (∑ p, m p * x p l) * w l = ∑ p, (∑ l, x p l * w l) * m p := by
    simp_rw [Finset.sum_mul]
    rw [Finset.sum_comm]
    exact Finset.sum_congr rfl fun p _ => Finset.sum_congr rfl fun l _ => by ring
  rw [hmid, Finset.sum_mul, Finset.mul_sum, ← Finset.sum_add_distrib, ← Finset.sum_add_distrib]
  exact Finset.sum_congr rfl fun p _ => by ring

/-- The same with the kernel's final factor `1/32` and the reference's `0 + · ` and `/ 32`. -/
theorem real_identity {ι κ : Type*} [Fintype ι] [Fintype κ]
    (m : ι → ℝ) (x : ι → κ → ℝ) (w : κ → ℝ) (A ω : ℝ) :
    ((∑ p, m p) * A + ∑ l, (∑ p, m p * x p l) * w l + ω * ∑ p, m p * m p) * (1 / 32)
      = (0 + ∑ p, ((A + ∑ l, x p l * w l) + m p * ω) * m p) / 32 := by
  rw [sum_before_eq_sum_after]; ring

/-! ### Each formula, on real-valued arrays, is the image of one real expression -/

section Real

variable (o : (⟨2, ![16384, 256]⟩ : Shape).Idx → ℝ) (x : (⟨3, ![16384, 32, 256]⟩ : Shape).Idx → ℝ)
  (m : (⟨2, ![16384, 32]⟩ : Shape).Idx → ℝ) (w : (⟨2, ![256, 513]⟩ : Shape).Idx → ℝ)
  (c : (⟨1, ![256]⟩ : Shape).Idx → ℝ)

/-- The peer-independent part, as a real number. -/
def ownPartR (b : Fin 16384) (r : Fin 256) : ℝ :=
  (∑ l : Fin 256, o (ix2 b l) * w (ix2 r (colOwn l))) + c (ix1 r)

theorem ownPart_coe (b : Fin 16384) (r : Fin 256) :
    ownPart (fun i => (o i : EReal)) (fun i => (w i : EReal)) (fun i => (c i : EReal)) b r
      = ((ownPartR o w c b r : ℝ) : EReal) := by
  simp only [ownPart, ownPartR, EReal.coe_add, EReal.coe_mul, LibFinite.coe_finset_sum]

theorem kernelEntry_coe (b : Fin 16384) (r : Fin 256) :
    kernelEntry (fun i => (o i : EReal)) (fun i => (x i : EReal)) (fun i => (m i : EReal))
        (fun i => (w i : EReal)) (fun i => (c i : EReal)) b r
      = ((((∑ p : Fin 32, m (ix2 b p)) * ownPartR o w c b r
            + ∑ l : Fin 256, (∑ p : Fin 32, m (ix2 b p) * x (ix3 b p l)) * w (ix2 r (colPeer l))
            + w (ix2 r colMetric) * ∑ p : Fin 32, m (ix2 b p) * m (ix2 b p)) * (1 / 32) : ℝ) : EReal) := by
  rw [EReal.coe_mul]
  simp only [kernelEntry, ownPart_coe, lit_inv32, EReal.coe_add, EReal.coe_mul,
    LibFinite.coe_finset_sum]

theorem refEntry_coe (b : Fin 16384) (r : Fin 256) :
    refEntry (fun i => (o i : EReal)) (fun i => (x i : EReal)) (fun i => (m i : EReal))
        (fun i => (w i : EReal)) (fun i => (c i : EReal)) b r
      = (((0 + ∑ p : Fin 32,
            ((ownPartR o w c b r + ∑ l : Fin 256, x (ix3 b p l) * w (ix2 r (colPeer l)))
              + m (ix2 b p) * w (ix2 r colMetric)) * m (ix2 b p)) / 32 : ℝ) : EReal) := by
  rw [← LibFinite.div_coe_coe _ (by norm_num : (32 : ℝ) ≠ 0)]
  simp only [refEntry, ownPart_coe, lit_zero, lit_32, EReal.coe_add, EReal.coe_mul,
    LibFinite.coe_finset_sum]

/-- On real-valued arrays the two entries agree. -/
theorem kernelEntry_eq_refEntry_of_real (b : Fin 16384) (r : Fin 256) :
    kernelEntry (fun i => (o i : EReal)) (fun i => (x i : EReal)) (fun i => (m i : EReal))
        (fun i => (w i : EReal)) (fun i => (c i : EReal)) b r
      = refEntry (fun i => (o i : EReal)) (fun i => (x i : EReal)) (fun i => (m i : EReal))
        (fun i => (w i : EReal)) (fun i => (c i : EReal)) b r := by
  rw [kernelEntry_coe, refEntry_coe]
  exact congrArg _ (real_identity (fun p : Fin 32 => m (ix2 b p)) (fun (p : Fin 32) (l : Fin 256) => x (ix3 b p l))
    (fun l : Fin 256 => w (ix2 r (colPeer l))) (ownPartR o w c b r) (w (ix2 r colMetric)))

end Real

/-! ### The statement on the arrays -/

variable (own : FVec Ideal ⟨2, ![16384, 256]⟩ .f32) (peer : FVec Ideal ⟨3, ![16384, 32, 256]⟩ .f32)
  (metr : FVec Ideal ⟨2, ![16384, 32]⟩ .f32) (W : FVec Ideal ⟨2, ![256, 513]⟩ .f32)
  (bias : FVec Ideal ⟨1, ![256]⟩ .f32)

/-- If every entry of the five arrays is a real number, the kernel's result array equals the
    reference's: name the real numbers behind the entries and apply the entrywise statement. -/
theorem kernelFn_eq_refFn (h0 : LibFinite.AllReal own) (h1 : LibFinite.AllReal peer)
    (h2 : LibFinite.AllReal metr) (h3 : LibFinite.AllReal W) (h4 : LibFinite.AllReal bias) :
    kernelFn own peer metr W bias = refFn own peer metr W bias := by
  have e0 : ∀ i, ∃ t : ℝ, own i = (t : EReal) := h0
  have e1 : ∀ i, ∃ t : ℝ, peer i = (t : EReal) := h1
  have e2 : ∀ i, ∃ t : ℝ, metr i = (t : EReal) := h2
  have e3 : ∀ i, ∃ t : ℝ, W i = (t : EReal) := h3
  have e4 : ∀ i, ∃ t : ℝ, bias i = (t : EReal) := h4
  choose o ho using e0
  choose x hx using e1
  choose m hm using e2
  choose w hw using e3
  choose c hc using e4
  rw [show own = fun i => (o i : EReal) from funext ho, show peer = fun i => (x i : EReal) from funext hx,
    show metr = fun i => (m i : EReal) from funext hm, show W = fun i => (w i : EReal) from funext hw,
    show bias = fun i => (c i : EReal) from funext hc]
  funext j
  exact kernelEntry_eq_refEntry_of_real o x m w c (j 0) (j 1)

end Cert.PeerMean

end
-- ==== Proof.FiniteArgs.lean ====
/-
  The precondition makes every argument entry a real number.

  The precondition is the conjunction of five tests, one per argument array, each of the form
  "every entry `x` satisfies `|x| < +∞`". Over the extended reals `|x|` is `max x (-x)`, which is
  `⊤` exactly when `x` is `⊤` or `⊥`; so the strict inequality below `⊤` says that `x` is neither
  infinity, that is, a real number. The conjunction of 1-bit words is 1 only when each word is 1,
  and a reduction by "and" over all axes is 1 only when every reduced word is 1: reading the
  predicate back therefore gives the entrywise fact for each of the five arrays.
-/
import proofs.«126119_j32066225832017_2_alg».proof.Defs
import proofs.«126119_j32066225832017_2_alg».proof.Proof.Gen.Pre_finite_inputs
import proofs.«126119_j32066225832017_2_alg».proof.Proof.LibFinite
import Idealize.ShloMosaic.Lib.ReduceAll
import Idealize.ShloMosaic.Lib.ValueIdx

noncomputable section

namespace Cert.PeerMean

open Idealize.ShloMosaic Idealize.ShloMosaic.ValueIdx
open Cert.Pre_finite_inputs (S_ S16384x256 S16384x32x256 S16384x32 S256x513 S256)

/-- The word `0x7F800000` (all exponent bits set, zero mantissa, sign clear) is `+∞`. -/
theorem lit_top : Ideal.ofBits .f32 0x7F800000#32 = (⊤ : EReal) := by
  simp [Ideal.ofBits, Ideal.ieee]

/-- If the test `|x| < +∞` answers 1 then `x` is a real number: at either infinity `max x (-x)`
    is `⊤`, which is not strictly below `⊤`. -/
theorem isReal_of_abs_lt_top (x : EReal)
    (h : Ideal.cmp .olt (max x (-x)) (Ideal.ofBits .f32 0x7F800000#32) = 1#1) : LibFinite.IsReal x := by
  rw [lit_top] at h
  induction x using EReal.rec with
  | bot => simp [Ideal.cmp] at h
  | top => simp [Ideal.cmp] at h
  | coe r => exact ⟨r, rfl⟩

/-- The scalar result shape has exactly one index. -/
instance subsingleton_scalar_idx : Subsingleton S_.Idx := ⟨fun _ _ => funext fun d => d.elim0⟩

/-- One test read back, for an array of any shape: if the "and" over all entries of the words
    `|x i| < +∞` is 1, every entry of `x` is a real number. -/
theorem allReal_of_all_abs_lt_top {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ix0 = 1#1) :
    LibFinite.AllReal x := by
  intro i
  have hi := Host.reduce_andi_all _ _ hr hu ix0 e i
  exact isReal_of_abs_lt_top (x i) hi

/-- The precondition, read back: all five argument arrays have only real entries. -/
theorem args_real [h : Cert.Pre_finite_inputs.Facts]
    (x0 : FVec Ideal S16384x256 .f32) (x1 : FVec Ideal S16384x32x256 .f32)
    (x2 : FVec Ideal S16384x32 .f32) (x3 : FVec Ideal S256x513 .f32) (x4 : FVec Ideal S256 .f32)
    (hpre : Cert.Pre_finite_inputs.fn (F := Ideal) x0 x1 x2 x3 x4 = fun _ => 1#1) :
    LibFinite.AllReal x0 ∧ LibFinite.AllReal x1 ∧ LibFinite.AllReal x2 ∧ LibFinite.AllReal x3
      ∧ LibFinite.AllReal x4 := by
  have e := congrFun hpre ix0
  dsimp only [Cert.Pre_finite_inputs.fn, Cert.Pre_finite_inputs.fn_part1] at e
  -- the five tests are joined as (((t0 ∧ t1) ∧ t2) ∧ t3) ∧ t4
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨allReal_of_all_abs_lt_top x0 _ _ _ e0, allReal_of_all_abs_lt_top x1 _ _ _ e1,
    allReal_of_all_abs_lt_top x2 _ _ _ e2, allReal_of_all_abs_lt_top x3 _ _ _ e3,
    allReal_of_all_abs_lt_top x4 _ _ _ e4⟩

end Cert.PeerMean

end
-- ==== Proof.lean ====
/-
  A linear layer applied to every (own latent, peer latent, metric) triple of a sample, each peer's output scaled
  by the peer's metric, and the 32 scaled outputs averaged — computed two ways.

  The reference does exactly that, per sample `b` and output coordinate `r`:
      ( 0 + ∑ₚ ((ownPart + ∑ₗ peer[b,p,l]·W[r,256+l]) + metr[b,p]·W[r,512]) · metr[b,p] ) / 32,
  where `ownPart = ∑ₗ own[b,l]·W[r,l] + bias[r]` does not depend on the peer. The kernel takes the sum over the peers
  before the linear map, on blocks of 512 samples:
      ( (∑ₚ metr[b,p])·ownPart + ∑ₗ (∑ₚ metr[b,p]·peer[b,p,l])·W[r,256+l] + W[r,512]·∑ₚ metr[b,p]² ) · 2⁻⁵.
  The two agree by distributivity and by exchanging the sum over the peers with the sum over the latent
  coordinates; `2⁻⁵` is exactly `1/32`. On the extended reals distributivity fails at the infinities, so the
  agreement uses the precondition that every input entry is finite.

  The steps, one module each: the two formulas entry by entry (Spec); the kernel body's stored value at one entry
  (Payload); the four small arrays the program cuts from the weights and the bias before the grid runs (HostSide);
  the kernel's whole result array, from the 32 row bands the grid points write (KernelValue); the reference's
  result array (RefRead); finiteness of every argument entry from the precondition (FiniteArgs); and the agreement
  of the two formulas on finite inputs (Bridge). The frames of the two kernel programs are the generated ones; the
  reference's frame is its run with the result dropped; the idealization rewrote nothing, so there is nothing to
  preserve.
-/
import proofs.«126119_j32066225832017_2_alg».proof.Defs
import proofs.«126119_j32066225832017_2_alg».proof.Proof.Gen.Kernel
import proofs.«126119_j32066225832017_2_alg».proof.Proof.Gen.Kernel.Frame
import proofs.«126119_j32066225832017_2_alg».proof.Proof.Gen.KernelIdeal
import proofs.«126119_j32066225832017_2_alg».proof.Proof.Gen.KernelIdeal.Frame
import proofs.«126119_j32066225832017_2_alg».proof.Proof.Gen.KernelIdeal.Value
import proofs.«126119_j32066225832017_2_alg».proof.Proof.Gen.ReferenceIdeal
import proofs.«126119_j32066225832017_2_alg».proof.Proof.Gen.ReferenceIdeal.Run
import proofs.«126119_j32066225832017_2_alg».proof.Proof.Gen.ReferenceIdeal.Read
import proofs.«126119_j32066225832017_2_alg».proof.Proof.Gen.Pre_finite_inputs
import proofs.«126119_j32066225832017_2_alg».proof.Proof.KernelValue
import proofs.«126119_j32066225832017_2_alg».proof.Proof.RefRead
import proofs.«126119_j32066225832017_2_alg».proof.Proof.Bridge
import proofs.«126119_j32066225832017_2_alg».proof.Proof.FiniteArgs
import Idealize.ShloMosaic.Adequacy
import Idealize.ShloMosaic.Init

noncomputable section

namespace Cert.Proof

open Idealize.ShloMosaic Idealize.ShloMosaic.TcCoe Idealize.SL.Sem

/-- The kernel's program as printed runs to the end and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs to the end with its arguments unchanged: its run, with what the result holds dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the five arguments, all of whose entries are finite, the kernel's result array
    (`kernelFn` of the arguments) and the reference's (`refFn` of the same arguments) are equal entry by entry. -/
theorem algebraic : Cert.algebraic_KernelIdeal_ReferenceIdeal := by
  intro m ρ m' ρ' hpre hagree
  refine ⟨fun c => Cert.PeerMean.KernelValue.resultFn m c, Cert.PeerMean.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.PeerMean.Reference.ref_eq,
    (hagree c).1, (hagree c).2.1, (hagree c).2.2.1, (hagree c).2.2.2.1, (hagree c).2.2.2.2]
  obtain ⟨h0, h1, h2, h3, h4⟩ := Cert.PeerMean.args_real _ _ _ _ _ (hpre c)
  exact (Cert.PeerMean.kernelFn_eq_refFn _ _ _ _ _ h0 h1 h2 h3 h4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
